-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) (main_arg2 : IVec S2048x2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .i32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .i32 = 32 ∨ (Rect.block (s := S2048x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x2048.size a
  hwx0_2 : ∀ i : grid0.Coords, EltTy.bits .bf16 = 32 ∨ (Rect.block (s := S2048x2048) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S16384x2048.size a
  hwx1_2 : ∀ i : grid1.Coords, EltTy.bits .f32 = 32 ∨ (Rect.block (s := S16384x2048) S512x2048.size (cc1_transform_2 i) (hinb1_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .i32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S2048x2048_S2048x2048_1_0 : S2048x2048.Transposes [1, 0] S2048x2048
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, stated over the extended reals with no program in sight.

  The layer is a masked linear map.  With `x : [16384, 2048]` the input rows, `w : [2048, 2048]` the weight
  (output feature `o`, input feature `k`) and `msk` an integer mask of the weight's shape, the masked weight is
  `w[o, k] · (msk[o, k] read as a signed integer)`, and the output is

      out[n, o] = ∑ k, x[n, k] · (w[o, k] · msk[o, k]).

  `maskedT` is the masked weight TRANSPOSED — entry `(k, o)` holds `w[o, k] · msk[o, k]` — which is the array the first
  kernel leaves behind and the operand the reference hands to its contraction; `rowsTimes x b` is the plain product of
  the rows of `x` with the columns of a `[2048, 2048]` matrix `b`; `expander` composes the two.  Nothing here needs
  the entries to be finite: both programs form the same products and add them over the same index.
-/
import Idealize.ShloMosaic.PureOps.Ideal
import Idealize.ShloMosaic.Lib.ValueIdx

noncomputable section

open scoped BigOperators

namespace Cert.Expander

open Idealize.ShloMosaic Idealize.ShloMosaic.ValueIdx

/-- The shape of the input and of the output: 16384 rows of 2048 features. -/
abbrev SX : Shape := ⟨2, ![16384, 2048]⟩
/-- The shape of the weight, of the mask, and of the masked weight transposed. -/
abbrev SW : Shape := ⟨2, ![2048, 2048]⟩

/-- The masked weight transposed: entry `(k, o)` is `w[o, k]` times the mask's integer `msk[o, k]` read signed. -/
def maskedT (w : SW.Idx → EReal) (msk : SW.Idx → BitVec 32) : SW.Idx → EReal :=
  fun j => w (ix2 (n0 := 2048) (n1 := 2048) (j 1) (j 0))
    * FloatOps.sitofp (F := Ideal) .f32 (msk (ix2 (n0 := 2048) (n1 := 2048) (j 1) (j 0)))

/-- Rows of `x` times columns of `b`: entry `(n, o)` is `∑ k, x[n, k] · b[k, o]`. -/
def rowsTimes (x : SX.Idx → EReal) (b : SW.Idx → EReal) : SX.Idx → EReal :=
  fun i => ∑ k : Fin 2048, x (ix2 (n0 := 16384) (n1 := 2048) (i 0) k) * b (ix2 (n0 := 2048) (n1 := 2048) k (i 1))

/-- The layer: `out[n, o] = ∑ k, x[n, k] · (w[o, k] · msk[o, k])`. -/
def expander (x : SX.Idx → EReal) (w : SW.Idx → EReal) (msk : SW.Idx → BitVec 32) : SX.Idx → EReal :=
  rowsTimes x (maskedT w msk)

/-- The masked weight transposed, read at coordinates. -/
theorem maskedT_apply (w : SW.Idx → EReal) (msk : SW.Idx → BitVec 32) (k o : Fin 2048) :
    maskedT w msk (ix2 k o) = w (ix2 o k) * FloatOps.sitofp (F := Ideal) .f32 (msk (ix2 o k)) := rfl

/-- The product read at coordinates. -/
theorem rowsTimes_apply (x : SX.Idx → EReal) (b : SW.Idx → EReal) (n : Fin 16384) (o : Fin 2048) :
    rowsTimes x b (ix2 n o) = ∑ k : Fin 2048, x (ix2 n k) * b (ix2 k o) := rfl

end Cert.Expander

end
-- ==== Proof.RefValue.lean ====
/-
  The reference computes the specification.

  Its four host operations are: the mask converted to floats, the weight multiplied by it entry by entry, that product
  transposed, and the input contracted with the transpose over the shared feature axis.  Read at an output index
  `(n, o)` the contraction is `∑ k, x[n, k] · t[k, o]`, the transpose hands `t[k, o]` on to entry `[o, k]` of the
  product, and the product there is `w[o, k] · msk[o, k]`: the specification's summand, term by term.
-/
import proofs.«176335_j43920335569022_2_alg».proof.Proof.Gen.ReferenceIdeal.Read
import proofs.«176335_j43920335569022_2_alg».proof.Proof.Spec

noncomputable section

open scoped BigOperators

namespace Cert.ReferenceIdeal.RefValue

open Cert.ReferenceIdeal Cert.ReferenceIdeal.Read Idealize.ShloMosaic Idealize.ShloMosaic.ValueIdx Cert.Expander

/-- The contraction's left index at `(n, o)` and `k` is `(n, k)`. -/
theorem lidx_eq (i : S16384x2048.Idx) (k : Fin 2048) : lidx_main_v3 i k = ix2 (i 0) k :=
  funext fun a => by match a with | ⟨0, _⟩ => rfl | ⟨1, _⟩ => rfl

/-- The contraction's right index at `(n, o)` and `k` is `(k, o)`, which the transpose reads at `(o, k)`. -/
theorem ridx_transposed_eq (i : S16384x2048.Idx) (k : Fin 2048) : idx_main_v2 (ridx_main_v3 i k) = ix2 (i 1) k :=
  funext fun a => by match a with | ⟨0, _⟩ => rfl | ⟨1, _⟩ => rfl

/-- The reference's result, as the generated reading states it, is the specification of its three arguments. -/
theorem result_eq (x0 : (⟨S16384x2048, .f32⟩ : BufTy).Contents (Elt Ideal)) (x1 : (⟨S2048x2048, .f32⟩ : BufTy).Contents (Elt Ideal))
    (x2 : (⟨S2048x2048, .i32⟩ : BufTy).Contents (Elt Ideal)) :
    val_main_v3 (F := Ideal) x0 x1 x2 = expander x0 x1 x2 := by
  funext i
  rw [val_main_v3_apply]
  show _ = ∑ k : Fin 2048, x0 (ix2 (i 0) k) * maskedT x1 x2 (ix2 k (i 1))
  refine Finset.sum_congr rfl fun k _ => ?_
  rw [val_main_v2_apply, val_main_v1_apply, val_main_v0_apply, lidx_eq, ridx_transposed_eq]
  rfl

end Cert.ReferenceIdeal.RefValue

end
-- ==== Proof.KernelRun.lean ====
/-
  The kernel's run with its RESULT named.

  The program is two kernel regions in a row: the first writes the masked weight (transposed) into an intermediate
  array, the second multiplies the input rows by it.  The contents of every buffer at each region boundary have
  names: `Gen.W0` at launch, `Gen.W1` between the regions (the first region's arrays at what its write-backs leave,
  everything else as launched), `Gen.W2` at the return (likewise for the second region).  The statement here: every
  execution terminates, the RESULT array ends at what `Gen.W2` says it holds, and the three arguments end as launched.
  What `Gen.W2` holds at the result is then a question about arrays alone, answered elsewhere.
-/
import proofs.«176335_j43920335569022_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two regions terminates without a fault; at the end the result buffer holds the
    last boundary's contents and each argument is as launched.  The run is the two regions' segments in order
    (`Gen.segs`), each entered from the contents the one before leaves; the last thread state holds EVERY unscoped
    buffer at `Gen.W2`, so the result buffer is read there exactly as the arguments are, and the arguments' contents
    walk back to the launch memory because no region writes them. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      -- the first thread state: every unscoped buffer at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      -- the last thread state against a final state: each unscoped buffer of the state holds the last boundary's contents
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Result

end
-- ==== Proof.MaskRegion.lean ====
/-
  The first region: the masked weight, transposed, as one array.

  The region walks the weight's 2048 output features in four row blocks of 512.  At point `t` it loads rows
  `512·t … 512·t + 511` of the weight and of the mask, multiplies them entry by entry (the mask's integer read signed;
  the change to a narrower float format is the identity on exact values), transposes the `[512, 2048]` product and
  writes it to COLUMNS `512·t … 512·t + 511` of the `[2048, 2048]` intermediate.  So whatever the point, the entry it
  writes at `(k, o)` is `w[o, k] · msk[o, k]`, and the four column blocks tile the intermediate: after the region it is
  `maskedT` of the weight and the mask as the region found them.
-/
import proofs.«176335_j43920335569022_2_alg».proof.Proof.Gen.KernelIdeal.Frame
import proofs.«176335_j43920335569022_2_alg».proof.Proof.Spec
import Idealize.ShloMosaic.Lib.Pipeline.Value
import Idealize.ShloMosaic.Lib.ValueIdx

set_option maxRecDepth 16384

noncomputable section

open scoped BigOperators

namespace Cert.KernelIdeal.MaskRegion

open Cert.KernelIdeal Cert.KernelIdeal.Gen Cert.Expander
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem zero_off : (![0, 0] : Fin 2 → Nat) = fun _ => 0 := funext fun a => by fin_cases a <;> rfl

/-- The stored value at `(k, o)` of a block: the weight block's `(o, k)` entry times the mask block's, read signed. -/
theorem payload_apply (x0 : Vec Ideal S512x2048 .f32) (x1 : Vec Ideal S512x2048 .i32) (j : S2048x512.Idx) :
    k0_pay1 (F := Ideal) x0 x1 j
      = x0 (ix2 (n0 := 512) (n1 := 2048) (j 1) (j 0)) * FloatOps.sitofp (F := Ideal) .f32 (x1 (ix2 (n0 := 512) (n1 := 2048) (j 1) (j 0))) := by
  unfold k0_pay1
  exact (transpose_apply [1, 0] _ transposes_S512x2048_p1_0_S2048x512 j (ix2 (n0 := 512) (n1 := 2048) (j 1) (j 0))
    (fun b => match b with | ⟨0, _⟩ => rfl | ⟨1, _⟩ => rfl)).trans rfl

/-- Where each window's block sits at point `t`: the weight's and the mask's at row block `t`, the intermediate's at
    column block `t`. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The weight's block at point `t` is rows `512·t … 512·t + 511` of the weight. -/
theorem weight_rows (c : Dev nD) (t : Fin cfg0.N) (x : S512x2048.Idx) (i : S2048x2048.Idx)
    (h0 : (i 0).val = 512 * t.val + (x 0).val) (h1 : (i 1).val = (x 1).val) :
    (iblk0 V c 0 t : Vec Ideal S512x2048 .f32) x = (V c main_arg1 : S2048x2048.Idx → EReal) i := by
  obtain ⟨e0, e1, -⟩ := block_indices t
  unfold iblk0
  rw [View.read_apply]
  show V c main_arg1 _ = V c main_arg1 _
  refine congrArg _ (funext fun a => Fin.ext ?_)
  match a with
  | ⟨0, _⟩ => show win0_0.index t 0 * 512 + 1 * (x 0).val = (i 0).val; rw [e0, h0]; omega
  | ⟨1, _⟩ => show win0_0.index t 1 * 2048 + 1 * (x 1).val = (i 1).val; rw [e1, h1]; omega

/-- The mask's block at point `t` is the same rows of the mask. -/
theorem mask_rows (c : Dev nD) (t : Fin cfg0.N) (x : S512x2048.Idx) (i : S2048x2048.Idx)
    (h0 : (i 0).val = 512 * t.val + (x 0).val) (h1 : (i 1).val = (x 1).val) :
    (iblk0 V c 1 t : Vec Ideal S512x2048 .i32) x = (V c main_arg2 : S2048x2048.Idx → BitVec 32) i := by
  obtain ⟨-, -, e2, e3, -⟩ := block_indices t
  unfold iblk0
  rw [View.read_apply]
  show V c main_arg2 _ = V c main_arg2 _
  refine congrArg _ (funext fun a => Fin.ext ?_)
  match a with
  | ⟨0, _⟩ => show win0_1.index t 0 * 512 + 1 * (x 0).val = (i 0).val; rw [e2, h0]; omega
  | ⟨1, _⟩ => show win0_1.index t 1 * 2048 + 1 * (x 1).val = (i 1).val; rw [e3, h1]; omega

/-- What point `t` writes back is block `t` of the masked weight transposed. -/
theorem flushed_eq (c : Dev nD) (t : Fin cfg0.N) :
    (dat0 V c).flushed 2 t = ((cfg0.win 2).blk t).view.read (Elt Ideal) (maskedT (V c main_arg1) (V c main_arg2)) := by
  show (cfg0.win 2).cut (grid0.coords t) ((dat0 V c).after 2 t) = _
  rw [after0_2]
  unfold out0_2
  rw [View.canon_unit_zero zero_off]
  simp only [View.ld_unit_zero (S := S512x2048) zero_off]
  obtain ⟨-, -, -, -, e4, e5⟩ := block_indices t
  funext j
  show k0_pay1 (F := Ideal) (iblk0 V c 0 t) (iblk0 V c 1 t) j
    = maskedT (V c main_arg1) (V c main_arg2) (((cfg0.win 2).blk t).view.emb j)
  have h0 : ((((cfg0.win 2).blk t).view.emb j) 1).val = 512 * t.val + (j 1).val := by
    show win0_2.index t 1 * 512 + 1 * (j 1).val = _; rw [e5]; omega
  have h1 : ((((cfg0.win 2).blk t).view.emb j) 0).val = (j 0).val := by
    show win0_2.index t 0 * 2048 + 1 * (j 0).val = _; rw [e4]; omega
  refine (payload_apply (iblk0 V c 0 t) (iblk0 V c 1 t) j).trans ?_
  exact congrArg₂ (fun a b => a * FloatOps.sitofp (F := Ideal) .f32 b)
    (weight_rows V c t _ (ix2 (n0 := 2048) (n1 := 2048) ((((cfg0.win 2).blk t).view.emb j) 1) ((((cfg0.win 2).blk t).view.emb j) 0)) h0 h1)
    (mask_rows V c t _ (ix2 (n0 := 2048) (n1 := 2048) ((((cfg0.win 2).blk t).view.emb j) 1) ((((cfg0.win 2).blk t).view.emb j) 0)) h0 h1)

/-- An index of the intermediate is in point `t`'s block iff each coordinate is in the block's range on its axis. -/
theorem mem_block (t : Fin cfg0.N) (i : S2048x2048.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v0).slice (win0_2.rect t)).set ↔ _
  rw [View.set_slice_whole, Rect.mem_set_unit]
  exact Iff.rfl

/-- Every entry of the intermediate is written: column `o` lies in the block of point `o / 512`. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 4 := N_0
  obtain ⟨t, ht⟩ : ∃ t : Fin cfg0.N, t.val = (i 1).val / 512 := ⟨⟨(i 1).val / 512, by rw [hN]; omega⟩, rfl⟩
  obtain ⟨-, -, -, -, e4, e5⟩ := block_indices t
  refine ⟨t, flush0_2 t, ?_⟩
  rw [mem_block]
  intro a
  match a with
  | ⟨0, _⟩ => show win0_2.index t 0 * 2048 ≤ (i 0).val ∧ (i 0).val < win0_2.index t 0 * 2048 + 2048; rw [e4]; omega
  | ⟨1, _⟩ => show win0_2.index t 1 * 512 ≤ (i 1).val ∧ (i 1).val < win0_2.index t 1 * 512 + 512; rw [e5, ht]; omega

/-- After the region the intermediate array is the masked weight transposed, of the weight and the mask as the region
    found them. -/
theorem final (c : Dev nD) : (dat0 V c).arrAt 2 cfg0.N = maskedT (V c main_arg1) (V c main_arg2) :=
  (dat0 V c).arrAt_eq_of_cover 2 (maskedT (V c main_arg1) (V c main_arg2)) (fun t _ => flushed_eq V c t) covered

end Cert.KernelIdeal.MaskRegion

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.MatmulRegion.lean ====
/-
  The second region: the input rows times the intermediate, as one array.

  The region walks the 16384 input rows in 32 blocks of 512.  At point `t` it loads rows `512·t … 512·t + 511` of the
  input and the WHOLE `[2048, 2048]` intermediate (the same block at every point), contracts the input block's
  feature axis with the intermediate's first axis into a zero accumulator, and writes the `[512, 2048]` product to
  rows `512·t … 512·t + 511` of the output.  The change of the input to a narrower float format is the identity on
  exact values and the accumulator starts at zero, so the entry written at `(n, o)` is `∑ k, x[n, k] · b[k, o]`
  whatever the point; the 32 row blocks tile the output, so after the region the output is `rowsTimes` of the input
  and the intermediate as the region found them.
-/
import proofs.«176335_j43920335569022_2_alg».proof.Proof.Gen.KernelIdeal.Frame
import proofs.«176335_j43920335569022_2_alg».proof.Proof.Spec
import proofs.«176335_j43920335569022_2_alg».proof.Proof.LibPlainDot
import Idealize.ShloMosaic.Lib.Pipeline.Value
import Idealize.ShloMosaic.Lib.ValueIdx

set_option maxRecDepth 16384

noncomputable section

open scoped BigOperators

namespace Cert.KernelIdeal.MatmulRegion

open Cert.KernelIdeal Cert.KernelIdeal.Gen Cert.Expander
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem zero_off : (![0, 0] : Fin 2 → Nat) = fun _ => 0 := funext fun a => by fin_cases a <;> rfl

/-- The stored value at `(p, q)` of a block: row `p` of the input block times column `q` of the intermediate. -/
theorem payload_apply (x0 : Vec Ideal S512x2048 .f32) (x1 : Vec Ideal S2048x2048 .bf16) (j : S512x2048.Idx) :
    k1_pay1 (F := Ideal) x0 x1 j
      = ∑ k : Fin 2048, x0 (ix2 (n0 := 512) (n1 := 2048) (j 0) k) * x1 (ix2 (n0 := 2048) (n1 := 2048) k (j 1)) := by
  obtain ⟨p, q, rfl⟩ : ∃ (p : Fin 512) (q : Fin 2048), j = ix2 p q := ⟨j 0, j 1, eq_ix2 j⟩
  unfold k1_pay1
  refine (PlainDot.matmul_zero_apply dot_S512x2048_S2048x2048_S512x2048_1_0_0_1_n_n_wf none
    (truncf .bf16 x0 bitsLt_bf16_f32) (shapeCast S2048x2048 x1 shapeCasts_S2048x2048_S2048x2048) p q).trans ?_
  refine Finset.sum_congr rfl fun k _ => ?_
  rw [shapeCast_self]
  rfl

/-- Where each window's block sits at point `t`: the input's and the output's at row block `t`, the intermediate's
    always the whole array. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point `t` is rows `512·t … 512·t + 511` of the input. -/
theorem input_rows (c : Dev nD) (t : Fin cfg1.N) (x : S512x2048.Idx) (i : S16384x2048.Idx)
    (h0 : (i 0).val = 512 * t.val + (x 0).val) (h1 : (i 1).val = (x 1).val) :
    (iblk1 V c 0 t : Vec Ideal S512x2048 .f32) x = (V c main_arg0 : S16384x2048.Idx → EReal) i := by
  obtain ⟨e0, e1, -⟩ := block_indices t
  unfold iblk1
  rw [View.read_apply]
  show V c main_arg0 _ = V c main_arg0 _
  refine congrArg _ (funext fun a => Fin.ext ?_)
  match a with
  | ⟨0, _⟩ => show win1_0.index t 0 * 512 + 1 * (x 0).val = (i 0).val; rw [e0, h0]; omega
  | ⟨1, _⟩ => show win1_0.index t 1 * 2048 + 1 * (x 1).val = (i 1).val; rw [e1, h1]; omega

/-- The intermediate's block at every point is the whole intermediate. -/
theorem resident_whole (c : Dev nD) (t : Fin cfg1.N) (x i : S2048x2048.Idx)
    (h0 : (i 0).val = (x 0).val) (h1 : (i 1).val = (x 1).val) :
    (iblk1 V c 1 t : Vec Ideal S2048x2048 .bf16) x = (V c main_v0 : S2048x2048.Idx → EReal) i := by
  obtain ⟨-, -, e2, e3, -⟩ := block_indices t
  unfold iblk1
  rw [View.read_apply]
  show V c main_v0 _ = V c main_v0 _
  refine congrArg _ (funext fun a => Fin.ext ?_)
  match a with
  | ⟨0, _⟩ => show win1_1.index t 0 * 2048 + 1 * (x 0).val = (i 0).val; rw [e2, h0]; omega
  | ⟨1, _⟩ => show win1_1.index t 1 * 2048 + 1 * (x 1).val = (i 1).val; rw [e3, h1]; omega

/-- What point `t` writes back is block `t` of the product of the input with the intermediate. -/
theorem flushed_eq (c : Dev nD) (t : Fin cfg1.N) :
    (dat1 V c).flushed 2 t = ((cfg1.win 2).blk t).view.read (Elt Ideal) (rowsTimes (V c main_arg0) (V c main_v0)) := by
  show (cfg1.win 2).cut (grid1.coords t) ((dat1 V c).after 2 t) = _
  rw [after1_2]
  unfold out1_2
  rw [View.canon_unit_zero zero_off]
  simp only [View.ld_unit_zero (S := S512x2048) zero_off, View.ld_unit_zero (S := S2048x2048) zero_off]
  obtain ⟨-, -, -, -, e4, e5⟩ := block_indices t
  funext j
  show k1_pay1 (F := Ideal) (iblk1 V c 0 t) (iblk1 V c 1 t) j
    = rowsTimes (V c main_arg0) (V c main_v0) (((cfg1.win 2).blk t).view.emb j)
  have h0 : ((((cfg1.win 2).blk t).view.emb j) 0).val = 512 * t.val + (j 0).val := by
    show win1_2.index t 0 * 512 + 1 * (j 0).val = _; rw [e4]; omega
  have h1 : ((((cfg1.win 2).blk t).view.emb j) 1).val = (j 1).val := by
    show win1_2.index t 1 * 2048 + 1 * (j 1).val = _; rw [e5]; omega
  refine (payload_apply (iblk1 V c 0 t) (iblk1 V c 1 t) j).trans ?_
  unfold rowsTimes
  refine Finset.sum_congr rfl fun k _ => ?_
  exact congrArg₂ (fun a b : EReal => a * b)
    (input_rows V c t _ (ix2 (n0 := 16384) (n1 := 2048) ((((cfg1.win 2).blk t).view.emb j) 0) k) h0 rfl)
    (resident_whole V c t _ (ix2 (n0 := 2048) (n1 := 2048) k ((((cfg1.win 2).blk t).view.emb j) 1)) rfl h1)

/-- An index of the output is in point `t`'s block iff each coordinate is in the block's range on its axis. -/
theorem mem_block (t : Fin cfg1.N) (i : S16384x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v1).slice (win1_2.rect t)).set ↔ _
  rw [View.set_slice_whole, Rect.mem_set_unit]
  exact Iff.rfl

/-- Every entry of the output is written: row `n` lies in the block of point `n / 512`. -/
theorem covered (i : S16384x2048.Idx) :
    ∃ t : Fin cfg1.N, (cfg1.win 2).flush t = true ∧ i ∈ ((cfg1.win 2).blk t).view.set := by
  have hi0 : (i 0).val < 16384 := (i 0).isLt
  have hi1 : (i 1).val < 2048 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨-, -, -, -, e4, e5⟩ := block_indices t
  refine ⟨t, flush1_2 t, ?_⟩
  rw [mem_block]
  intro a
  match a with
  | ⟨0, _⟩ => show win1_2.index t 0 * 512 ≤ (i 0).val ∧ (i 0).val < win1_2.index t 0 * 512 + 512; rw [e4, ht]; omega
  | ⟨1, _⟩ => show win1_2.index t 1 * 2048 ≤ (i 1).val ∧ (i 1).val < win1_2.index t 1 * 2048 + 2048; rw [e5]; omega

/-- After the region the output array is the product of the input with the intermediate, both as the region found
    them. -/
theorem final (c : Dev nD) : (dat1 V c).arrAt 2 cfg1.N = rowsTimes (V c main_arg0) (V c main_v0) :=
  (dat1 V c).arrAt_eq_of_cover 2 (rowsTimes (V c main_arg0) (V c main_v0)) (fun t _ => flushed_eq V c t) covered

end Cert.KernelIdeal.MatmulRegion

end
-- ==== Proof.KernelValue.lean ====
/-
  The kernel's result array is the specification of its arguments.

  Follow the buffers through the two regions.  At launch every buffer holds the launch memory.  The first region
  writes only the intermediate, and leaves there the masked weight transposed, computed from the weight and the mask
  as launched.  The second region finds the input untouched (the first region never names it) and the intermediate
  as the first region left it, and writes their product into the result.  So the result is
  `rowsTimes input (maskedT weight mask)`, which is the layer.
-/
import proofs.«176335_j43920335569022_2_alg».proof.Proof.KernelRun
import proofs.«176335_j43920335569022_2_alg».proof.Proof.MaskRegion
import proofs.«176335_j43920335569022_2_alg».proof.Proof.MatmulRegion

set_option maxRecDepth 16384

noncomputable section

namespace Cert.KernelIdeal.Result

open Cert.KernelIdeal Cert.KernelIdeal.Gen Cert.Expander
open Idealize.ShloMosaic Idealize.ShloMosaic.TcCoe Idealize.SL.Sem

variable (m : (ℓ : Loc nD τ sig) → Buf (Elt Ideal) ℓ) (ρ : Dev nD → PrngReg)

/-- Between the regions the input still holds its launch contents: the first region does not touch it. -/
theorem input_between (c : Dev nD) : V1 m ρ c main_arg0 = m ((c : Thread nD τ).loc main_arg0) :=
  W1_of_ne m ρ c main_arg0 (by decide)

/-- Between the regions the intermediate holds the masked weight transposed, of the weight and the mask as launched. -/
theorem intermediate_between (c : Dev nD) :
    V1 m ρ c main_v0 = maskedT (m ((c : Thread nD τ).loc main_arg1)) (m ((c : Thread nD τ).loc main_arg2)) :=
  (W1_arr m ρ c 2).trans (MaskRegion.final (V0 m ρ) c)

/-- At the return the result buffer holds the layer's output of the three arguments as launched. -/
theorem result_eq (c : Dev nD) :
    W2 m ρ c (Proc.devRef .tc main_v1)
      = expander (m ((c : Thread nD τ).loc main_arg0)) (m ((c : Thread nD τ).loc main_arg1)) (m ((c : Thread nD τ).loc main_arg2)) :=
  (W2_arr m ρ c 2).trans ((MatmulRegion.final (V1 m ρ) c).trans
    (congrArg₂ rowsTimes (input_between m ρ c) (intermediate_between m ρ c)))

/-- The kernel's run, read: every execution terminates with the result at the layer's output of the arguments and the
    arguments unchanged. -/
theorem run : θ_run defs (onTc (τ := τ) (main (F := Ideal))) ⟨m, fun _ => 0, ρ⟩ (fun r => ∀ c : Dev nD,
      r.2.mem ((c.tc : Thread nD τ).loc main_v1)
        = expander (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.Result

end
-- ==== Proof.lean ====
/-
  The masked linear layer: `out[n, o] = ∑ k, x[n, k] · (w[o, k] · msk[o, k])`.

  The kernel computes it in two regions — the masked weight, transposed, into an intermediate array; then the input
  rows times that array — and the reference by four host operations: the mask as floats, the entrywise product with
  the weight, its transpose, one contraction.  On exact values a change of float format is the identity and a
  contraction into a zero accumulator is the plain sum, so both programs form the same products `x[n, k] · (w[o, k] ·
  msk[o, k])` and add them over the same `k`: the results agree entry by entry, with no condition on the entries.

  The modules: Proof/Spec.lean states that function; Proof/RefValue.lean shows the reference's composed operations are
  it; Proof/MaskRegion.lean and Proof/MatmulRegion.lean show what each region leaves in the array it writes;
  Proof/KernelRun.lean reads the kernel's run at its result buffer; Proof/KernelValue.lean follows the buffers through
  the two regions; Proof/LibPlainDot.lean is the textbook reading of a plain matrix product's contraction.  The three
  frames are the generated ones (the reference's is its generated run with the result dropped), and the kernel was
  idealized without any rewrite, so there is nothing to preserve.
-/
import proofs.«176335_j43920335569022_2_alg».proof.Defs
import proofs.«176335_j43920335569022_2_alg».proof.Proof.Gen.Kernel
import proofs.«176335_j43920335569022_2_alg».proof.Proof.Gen.Kernel.Skeleton
import proofs.«176335_j43920335569022_2_alg».proof.Proof.Gen.Kernel.Launch
import proofs.«176335_j43920335569022_2_alg».proof.Proof.Gen.Kernel.Points
import proofs.«176335_j43920335569022_2_alg».proof.Proof.Gen.Kernel.Frame
import proofs.«176335_j43920335569022_2_alg».proof.Proof.Gen.KernelIdeal
import proofs.«176335_j43920335569022_2_alg».proof.Proof.Gen.KernelIdeal.Skeleton
import proofs.«176335_j43920335569022_2_alg».proof.Proof.Gen.KernelIdeal.Launch
import proofs.«176335_j43920335569022_2_alg».proof.Proof.Gen.KernelIdeal.Points
import proofs.«176335_j43920335569022_2_alg».proof.Proof.Gen.KernelIdeal.Frame
import proofs.«176335_j43920335569022_2_alg».proof.Proof.Gen.ReferenceIdeal
import proofs.«176335_j43920335569022_2_alg».proof.Proof.Gen.Pre_finite_inputs
import proofs.«176335_j43920335569022_2_alg».proof.Proof.Gen.ReferenceIdeal.Run
import proofs.«176335_j43920335569022_2_alg».proof.Proof.Gen.ReferenceIdeal.Read
import proofs.«176335_j43920335569022_2_alg».proof.Proof.RefValue
import proofs.«176335_j43920335569022_2_alg».proof.Proof.KernelValue
import Idealize.ShloMosaic.Adequacy
import Idealize.ShloMosaic.Init

noncomputable section

namespace Cert.Proof

open Idealize.ShloMosaic Idealize.ShloMosaic.TcCoe Idealize.SL.Sem Cert.Expander

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output of the arguments: the kernel's result array by following its two
    regions, the reference's by reading its four operations at an index; the arguments agree, so the outputs do. -/
theorem algebraic : Cert.algebraic_KernelIdeal_ReferenceIdeal := by
  intro m ρ m' ρ' _ hagree
  refine ⟨fun c => expander (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
